-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S32x4096x2 : Shape := ⟨3, ![32, 4096, 2]⟩
abbrev S768x256 : Shape := ⟨2, ![768, 256]⟩
abbrev S768 : Shape := ⟨1, ![768]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn {F : FTy → Type} [FloatOps F] (main_arg0 : FVec F S32x1x512x512 .f32) (main_arg1 : IVec S32x4096x2 32) (main_arg2 : IVec S32x4096x2 32) (main_arg3 : FVec F S768x256 .f32) (main_arg4 : FVec F S768 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S768x256 .f32 := Host.absf main_arg3
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg4
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  main_v13
-- ==== Kernel.lean ====
abbrev S32x1x512x512 : Shape := ⟨4, ![32, 1, 512, 512]⟩
abbrev S32x4096x2 : Shape := ⟨3, ![32, 4096, 2]⟩
abbrev S768x256 : Shape := ⟨2, ![768, 256]⟩
abbrev S768 : Shape := ⟨1, ![768]⟩
abbrev S_ : Shape := ⟨0, ![]⟩
abbrev S32x1x536x536 : Shape := ⟨4, ![32, 1, 536, 536]⟩
abbrev S32x4096x1 : Shape := ⟨3, ![32, 4096, 1]⟩
abbrev S32x4096 : Shape := ⟨2, ![32, 4096]⟩
abbrev S4096x1 : Shape := ⟨2, ![4096, 1]⟩
abbrev S32x4096x3 : Shape := ⟨3, ![32, 4096, 3]⟩
abbrev S32x4096x1x16x16 : Shape := ⟨5, ![32, 4096, 1, 16, 16]⟩
abbrev S131072x256 : Shape := ⟨2, ![131072, 256]⟩
abbrev S256x768 : Shape := ⟨2, ![256, 768]⟩
abbrev S1x768 : Shape := ⟨2, ![1, 768]⟩
abbrev S131072x768 : Shape := ⟨2, ![131072, 768]⟩
abbrev S2048x256 : Shape := ⟨2, ![2048, 256]⟩
abbrev S2048x768 : Shape := ⟨2, ![2048, 768]⟩
abbrev S32x4096x1x768 : Shape := ⟨4, ![32, 4096, 1, 768]⟩

abbrev nBuf : Space → Nat
  | .hbm => 41
  | .vmem => 6
  | .smem => 0
  | _ => 0

abbrev bufTy : (tb : Table) → Fin (tcTables nBuf tb) → BufTy
  | .hbm, ⟨0, _⟩ => ⟨S32x1x512x512, .f32⟩
  | .hbm, ⟨1, _⟩ => ⟨S32x4096x2, .i32⟩
  | .hbm, ⟨2, _⟩ => ⟨S32x4096x2, .i32⟩
  | .hbm, ⟨3, _⟩ => ⟨S768x256, .f32⟩
  | .hbm, ⟨4, _⟩ => ⟨S768, .f32⟩
  | .hbm, ⟨5, _⟩ => ⟨S_, .i32⟩
  | .hbm, ⟨6, _⟩ => ⟨S_, .f32⟩
  | .hbm, ⟨7, _⟩ => ⟨S32x1x536x536, .f32⟩
  | .hbm, ⟨8, _⟩ => ⟨S32x1x536x536, .bf16⟩
  | .hbm, ⟨9, _⟩ => ⟨S32x4096x2, .i32⟩
  | .hbm, ⟨10, _⟩ => ⟨S32x4096x1, .i32⟩
  | .hbm, ⟨11, _⟩ => ⟨S32x4096, .i32⟩
  | .hbm, ⟨12, _⟩ => ⟨S32x4096x1, .i32⟩
  | .hbm, ⟨13, _⟩ => ⟨S32x4096, .i32⟩
  | .hbm, ⟨14, _⟩ => ⟨S_, .i32⟩
  | .hbm, ⟨15, _⟩ => ⟨S32x4096, .i32⟩
  | .hbm, ⟨16, _⟩ => ⟨S32x4096, .i1⟩
  | .hbm, ⟨17, _⟩ => ⟨S_, .i32⟩
  | .hbm, ⟨18, _⟩ => ⟨S32x4096, .i32⟩
  | .hbm, ⟨19, _⟩ => ⟨S32x4096, .i32⟩
  | .hbm, ⟨20, _⟩ => ⟨S32x4096, .i32⟩
  | .hbm, ⟨21, _⟩ => ⟨S_, .i32⟩
  | .hbm, ⟨22, _⟩ => ⟨S32x4096, .i32⟩
  | .hbm, ⟨23, _⟩ => ⟨S32x4096, .i1⟩
  | .hbm, ⟨24, _⟩ => ⟨S_, .i32⟩
  | .hbm, ⟨25, _⟩ => ⟨S32x4096, .i32⟩
  | .hbm, ⟨26, _⟩ => ⟨S32x4096, .i32⟩
  | .hbm, ⟨27, _⟩ => ⟨S32x4096, .i32⟩
  | .hbm, ⟨28, _⟩ => ⟨S_, .i32⟩
  | .hbm, ⟨29, _⟩ => ⟨S4096x1, .i32⟩
  | .hbm, ⟨30, _⟩ => ⟨S32x4096x1, .i32⟩
  | .hbm, ⟨31, _⟩ => ⟨S32x4096x1, .i32⟩
  | .hbm, ⟨32, _⟩ => ⟨S32x4096x1, .i32⟩
  | .hbm, ⟨33, _⟩ => ⟨S32x4096x3, .i32⟩
  | .hbm, ⟨34, _⟩ => ⟨S32x4096x1x16x16, .bf16⟩
  | .hbm, ⟨35, _⟩ => ⟨S131072x256, .bf16⟩
  | .hbm, ⟨36, _⟩ => ⟨S256x768, .f32⟩
  | .hbm, ⟨37, _⟩ => ⟨S256x768, .bf16⟩
  | .hbm, ⟨38, _⟩ => ⟨S1x768, .f32⟩
  | .hbm, ⟨39, _⟩ => ⟨S131072x768, .f32⟩
  | .hbm, ⟨40, _⟩ => ⟨S32x4096x1x768, .f32⟩
  | .local _ .vmem, ⟨0, _⟩ => ⟨S2048x256, .bf16⟩
  | .local _ .vmem, ⟨1, _⟩ => ⟨S2048x256, .bf16⟩
  | .local _ .vmem, ⟨2, _⟩ => ⟨S256x768, .bf16⟩
  | .local _ .vmem, ⟨3, _⟩ => ⟨S1x768, .f32⟩
  | .local _ .vmem, ⟨4, _⟩ => ⟨S2048x768, .f32⟩
  | .local _ .vmem, ⟨5, _⟩ => ⟨S2048x768, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S32x1x512x512_S32x1x536x536_000_000_12120_12120 : S32x1x512x512.Pads (![0, 0, 12, 12] : Fin 4 → Nat) ![0, 0, 12, 12] ![0, 0, 0, 0] S32x1x536x536
  h_S_ : 0 < S_.numel
  bitsLt_bf16_f32 : FTy.bits .bf16 < FTy.bits .f32
  slices_S32x4096x2_S32x4096x1_0_0_0 : S32x4096x2.Slices ![0, 0, 0] S32x4096x1
  shapeCasts_S32x4096x1_S32x4096 : S32x4096x1.ShapeCasts S32x4096
  slices_S32x4096x2_S32x4096x1_0_0_1 : S32x4096x2.Slices ![0, 0, 1] S32x4096x1
  bcast_S_S32x4096 : S_.BroadcastsInDim S32x4096 (![] : Fin 0 → Fin S32x4096.rank)
  bcast_S_S4096x1 : S_.BroadcastsInDim S4096x1 (![] : Fin 0 → Fin S4096x1.rank)
  bcast_S32x4096_S32x4096x1_0_1 : S32x4096.BroadcastsInDim S32x4096x1 (![0, 1] : Fin 2 → Fin S32x4096x1.rank)
  bcast_S4096x1_S32x4096x1_1_2 : S4096x1.BroadcastsInDim S32x4096x1 (![1, 2] : Fin 2 → Fin S32x4096x1.rank)
  concatenates_S32x4096x1_S32x4096x1_S32x4096x1_S32x4096x3_d2 : Shape.Concatenates [S32x4096x1, S32x4096x1, S32x4096x1] S32x4096x3 2
  shapeCasts_S32x4096x1x16x16_S131072x256 : S32x4096x1x16x16.ShapeCasts S131072x256
  transposes_S768x256_S256x768_1_0 : S768x256.Transposes [1, 0] S256x768
  shapeCasts_S768_S1x768 : S768.ShapeCasts S1x768
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  inb_S2048x768_S2048x768_0_0 : ∀ a, (![0, 0] : Fin 2 → Nat) a + S2048x768.size a ≤ S2048x768.size a
  h_S2048x768 : 0 < S2048x768.numel
  shapeCasts_S131072x768_S32x4096x1x768 : S131072x768.ShapeCasts S32x4096x1x768
  gather_S32x1x536x536_S32x4096x3_S32x4096x1x16x16_234_n_0_0_123_2_111616_wf : GatherDims.WF S32x1x536x536 S32x4096x3 S32x4096x1x16x16 [2, 3, 4] [] [0] [1, 2, 3] [0] 2 ![1, 1, 16, 16]
  dot_S2048x256_S256x768_S2048x768_1_0_0_1_n_n_wf : DotDims.WF S2048x256 S256x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .bf16 = 32 ∨ (Rect.block (s := S131072x256) S2048x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S131072x768.size a
  hwx0_3 : ∀ i : grid0.Coords, EltTy.bits .f32 = 32 ∨ (Rect.block (s := S131072x768) S2048x768.size (cc0_transform_3 i) (hinb0_3 i)).WholeWords (EltTy.packing .f32)

variable [Facts₀]

def gather_S32x1x536x536_S32x4096x3_S32x4096x1x16x16_234_n_0_0_123_2_111616 : GatherDims S32x1x536x536 S32x4096x3 S32x4096x1x16x16 where
  offsetDims := [2, 3, 4]
  collapsedSliceDims := []
  operandBatchingDims := [0]
  startIndicesBatchingDims := [0]
  startIndexMap := [1, 2, 3]
  indexVectorDim := 2
  sliceSizes := ![1, 1, 16, 16]
  wf := gather_S32x1x536x536_S32x4096x3_S32x4096x1x16x16_234_n_0_0_123_2_111616_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf

abbrev win0_0 : Pipeline.Window sig grid0 :=
  Pipeline.Window.ofSpec (Memref.whole main_v23) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2048x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1x512x512 : Shape := ⟨4, ![32, 1, 512, 512]⟩
abbrev S32x4096x2 : Shape := ⟨3, ![32, 4096, 2]⟩
abbrev S768x256 : Shape := ⟨2, ![768, 256]⟩
abbrev S768 : Shape := ⟨1, ![768]⟩
abbrev S_ : Shape := ⟨0, ![]⟩
abbrev S32x1x536x536 : Shape := ⟨4, ![32, 1, 536, 536]⟩
abbrev S32x4096x1 : Shape := ⟨3, ![32, 4096, 1]⟩
abbrev S32x4096 : Shape := ⟨2, ![32, 4096]⟩
abbrev S4096x1 : Shape := ⟨2, ![4096, 1]⟩
abbrev S32x4096x3 : Shape := ⟨3, ![32, 4096, 3]⟩
abbrev S32x4096x1x16x16 : Shape := ⟨5, ![32, 4096, 1, 16, 16]⟩
abbrev S32x4096x1x256 : Shape := ⟨4, ![32, 4096, 1, 256]⟩
abbrev S32x4096x1x768 : Shape := ⟨4, ![32, 4096, 1, 768]⟩
abbrev S1x1x1x768 : Shape := ⟨4, ![1, 1, 1, 768]⟩

abbrev nBuf : Space → Nat
  | .hbm => 39
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x4096x2, .i32⟩
  | .hbm, ⟨2, _⟩ => ⟨S32x4096x2, .i32⟩
  | .hbm, ⟨3, _⟩ => ⟨S768x256, .f32⟩
  | .hbm, ⟨4, _⟩ => ⟨S768, .f32⟩
  | .hbm, ⟨5, _⟩ => ⟨S_, .i32⟩
  | .hbm, ⟨6, _⟩ => ⟨S_, .f32⟩
  | .hbm, ⟨7, _⟩ => ⟨S32x1x536x536, .f32⟩
  | .hbm, ⟨8, _⟩ => ⟨S32x4096x2, .i32⟩
  | .hbm, ⟨9, _⟩ => ⟨S32x4096x1, .i32⟩
  | .hbm, ⟨10, _⟩ => ⟨S32x4096, .i32⟩
  | .hbm, ⟨11, _⟩ => ⟨S32x4096x1, .i32⟩
  | .hbm, ⟨12, _⟩ => ⟨S32x4096, .i32⟩
  | .hbm, ⟨13, _⟩ => ⟨S_, .i32⟩
  | .hbm, ⟨14, _⟩ => ⟨S32x4096, .i32⟩
  | .hbm, ⟨15, _⟩ => ⟨S32x4096, .i1⟩
  | .hbm, ⟨16, _⟩ => ⟨S_, .i32⟩
  | .hbm, ⟨17, _⟩ => ⟨S32x4096, .i32⟩
  | .hbm, ⟨18, _⟩ => ⟨S32x4096, .i32⟩
  | .hbm, ⟨19, _⟩ => ⟨S32x4096, .i32⟩
  | .hbm, ⟨20, _⟩ => ⟨S_, .i32⟩
  | .hbm, ⟨21, _⟩ => ⟨S32x4096, .i32⟩
  | .hbm, ⟨22, _⟩ => ⟨S32x4096, .i1⟩
  | .hbm, ⟨23, _⟩ => ⟨S_, .i32⟩
  | .hbm, ⟨24, _⟩ => ⟨S32x4096, .i32⟩
  | .hbm, ⟨25, _⟩ => ⟨S32x4096, .i32⟩
  | .hbm, ⟨26, _⟩ => ⟨S32x4096, .i32⟩
  | .hbm, ⟨27, _⟩ => ⟨S_, .i32⟩
  | .hbm, ⟨28, _⟩ => ⟨S4096x1, .i32⟩
  | .hbm, ⟨29, _⟩ => ⟨S32x4096x1, .i32⟩
  | .hbm, ⟨30, _⟩ => ⟨S32x4096x1, .i32⟩
  | .hbm, ⟨31, _⟩ => ⟨S32x4096x1, .i32⟩
  | .hbm, ⟨32, _⟩ => ⟨S32x4096x3, .i32⟩
  | .hbm, ⟨33, _⟩ => ⟨S32x4096x1x16x16, .f32⟩
  | .hbm, ⟨34, _⟩ => ⟨S32x4096x1x256, .f32⟩
  | .hbm, ⟨35, _⟩ => ⟨S32x4096x1x768, .f32⟩
  | .hbm, ⟨36, _⟩ => ⟨S1x1x1x768, .f32⟩
  | .hbm, ⟨37, _⟩ => ⟨S32x4096x1x768, .f32⟩
  | .hbm, ⟨38, _⟩ => ⟨S32x4096x1x768, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  pads_S32x1x512x512_S32x1x536x536_000_000_12120_12120 : S32x1x512x512.Pads (![0, 0, 12, 12] : Fin 4 → Nat) ![0, 0, 12, 12] ![0, 0, 0, 0] S32x1x536x536
  h_S_ : 0 < S_.numel
  slices_S32x4096x2_S32x4096x1_0_0_0 : S32x4096x2.Slices ![0, 0, 0] S32x4096x1
  shapeCasts_S32x4096x1_S32x4096 : S32x4096x1.ShapeCasts S32x4096
  slices_S32x4096x2_S32x4096x1_0_0_1 : S32x4096x2.Slices ![0, 0, 1] S32x4096x1
  bcast_S_S32x4096 : S_.BroadcastsInDim S32x4096 (![] : Fin 0 → Fin S32x4096.rank)
  bcast_S_S4096x1 : S_.BroadcastsInDim S4096x1 (![] : Fin 0 → Fin S4096x1.rank)
  bcast_S32x4096_S32x4096x1_0_1 : S32x4096.BroadcastsInDim S32x4096x1 (![0, 1] : Fin 2 → Fin S32x4096x1.rank)
  bcast_S4096x1_S32x4096x1_1_2 : S4096x1.BroadcastsInDim S32x4096x1 (![1, 2] : Fin 2 → Fin S32x4096x1.rank)
  concatenates_S32x4096x1_S32x4096x1_S32x4096x1_S32x4096x3_d2 : Shape.Concatenates [S32x4096x1, S32x4096x1, S32x4096x1] S32x4096x3 2
  shapeCasts_S32x4096x1x16x16_S32x4096x1x256 : S32x4096x1x16x16.ShapeCasts S32x4096x1x256
  bcast_S768_S1x1x1x768_3 : S768.BroadcastsInDim S1x1x1x768 (![3] : Fin 1 → Fin S1x1x1x768.rank)
  bcast_S1x1x1x768_S32x4096x1x768_0_1_2_3 : S1x1x1x768.BroadcastsInDim S32x4096x1x768 (![0, 1, 2, 3] : Fin 4 → Fin S32x4096x1x768.rank)
  gather_S32x1x536x536_S32x4096x3_S32x4096x1x16x16_234_n_0_0_123_2_111616_wf : GatherDims.WF S32x1x536x536 S32x4096x3 S32x4096x1x16x16 [2, 3, 4] [] [0] [1, 2, 3] [0] 2 ![1, 1, 16, 16]
  dot_S32x4096x1x256_S768x256_S32x4096x1x768_3_1_012_0_n_n_wf : DotDims.WF S32x4096x1x256 S768x256 S32x4096x1x768 [3] [1] [0, 1, 2] [0] [] []

variable [Facts₀]

def gather_S32x1x536x536_S32x4096x3_S32x4096x1x16x16_234_n_0_0_123_2_111616 : GatherDims S32x1x536x536 S32x4096x3 S32x4096x1x16x16 where
  offsetDims := [2, 3, 4]
  collapsedSliceDims := []
  operandBatchingDims := [0]
  startIndicesBatchingDims := [0]
  startIndexMap := [1, 2, 3]
  indexVectorDim := 2
  sliceSizes := ![1, 1, 16, 16]
  wf := gather_S32x1x536x536_S32x4096x3_S32x4096x1x16x16_234_n_0_0_123_2_111616_wf
def dot_S32x4096x1x256_S768x256_S32x4096x1x768_3_1_012_0_n_n : DotDims S32x4096x1x256 S768x256 S32x4096x1x768 where
  lhsContracting := [3]
  rhsContracting := [1]
  lhsNonContracting := [0, 1, 2]
  rhsNonContracting := [0]
  lhsBatch := []
  rhsBatch := []
  wf := dot_S32x4096x1x256_S768x256_S32x4096x1x768_3_1_012_0_n_n_wf

class Facts : Prop extends Facts₀ where

variable [Facts]
-- ==== Proof.KernelRun.lean ====
/-
  The run of the whole program around its one pallas region, at any reading of the floats.

  Before the region the host pads the images by 12 zeros on each side of the two spatial axes, adds the key points
  and the shifts, normalises negative offsets, gathers one 16×16 patch per token, lays the patches out as the rows of a
  131072 × 256 matrix, transposes the weights to 256 × 768 and reshapes the bias to one row.  The region walks 64 grid
  points; at point t it is handed rows 2048·t … 2048·t + 2047 of the patch matrix, the whole weight matrix and the
  bias row, and stores into its output block the product of the two plus the bias row repeated down the rows.  After
  the region the 131072 × 768 result is reshaped to 32 × 4096 × 1 × 768.

  Here: the buffer contents when the region is entered (a fold of the host operations over the launch memory), the
  facts that no host operation writes an argument array, the body's triple (the output block ends as the one store's
  value, a function of the three input blocks), the per-point data of the pipeline, and the run of the program to a
  state in which the result array holds the blocks written back and every argument array is as launched.
-/
import proofs.«122945_j17205638988437_2_alg».proof.Proof.Gen.Kernel.Launch
import proofs.«122945_j17205638988437_2_alg».proof.Proof.Gen.Kernel.Skeleton
import proofs.«122945_j17205638988437_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The three stretches of host operations before the region, in order: the constant, the padding call, the rest. -/
abbrev before : List (List (HloOp τ sig (Elt F))) := [hostOps0, hostOps0_1, hostOps0_2]

/-- What core `c`'s buffers hold when the region is entered: the host operations before it, folded over the
    launch memory. -/
abbrev V0 (c : Dev nD) : Valuation τ sig (Elt F) := StableHlo.after (List.flatten (before (F := F))) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches only the result array of the region and its own result. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes no array the region stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- No host operation before the region writes reference `b`, when `b` is none of their result buffers. -/
local macro "prefix_keeps" : tactic => `(tactic| (
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

local macro "tail_keeps_ref" : tactic => `(tactic| (
  simp only [hostOps1, List.flatten_cons, List.flatten_nil, List.append_nil, List.cons_append,
    List.nil_append, List.Forall, StableHlo.reshape_writes, Finset.mem_singleton]
  repeat' apply And.intro
  all_goals exact StableHlo.devRef_ne_of_ne (by decide)))

/-- The region finds each argument array as launched. -/
theorem V_arg0 (c : Dev nD) : V m c main_arg0 = m ((c : Thread nD τ).loc main_arg0) :=
  StableHlo.after_of_forall_not_mem (b := Proc.devRef .tc main_arg0) _ _ (List.forall_iff_forall_mem.mp (by prefix_keeps))
theorem V_arg1 (c : Dev nD) : V m c main_arg1 = m ((c : Thread nD τ).loc main_arg1) :=
  StableHlo.after_of_forall_not_mem (b := Proc.devRef .tc main_arg1) _ _ (List.forall_iff_forall_mem.mp (by prefix_keeps))
theorem V_arg2 (c : Dev nD) : V m c main_arg2 = m ((c : Thread nD τ).loc main_arg2) :=
  StableHlo.after_of_forall_not_mem (b := Proc.devRef .tc main_arg2) _ _ (List.forall_iff_forall_mem.mp (by prefix_keeps))
theorem V_arg3 (c : Dev nD) : V m c main_arg3 = m ((c : Thread nD τ).loc main_arg3) :=
  StableHlo.after_of_forall_not_mem (b := Proc.devRef .tc main_arg3) _ _ (List.forall_iff_forall_mem.mp (by prefix_keeps))
theorem V_arg4 (c : Dev nD) : V m c main_arg4 = m ((c : Thread nD τ).loc main_arg4) :=
  StableHlo.after_of_forall_not_mem (b := Proc.devRef .tc main_arg4) _ _ (List.forall_iff_forall_mem.mp (by prefix_keeps))

section
variable (dats : (p : Fin 1) → (c : Dev nD) → Dat τ (Elt F) Unit ℕ (UR sig nD τ) ℕ (cfgs p) c) (c : Dev nD)

/-- Each argument array ends as launched: the reshape after the region does not write it and the region does not stage it. -/
theorem W_arg0 : Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by tail_keeps_ref)),
    Pipeline.withArrays_of_ne _ c (V0 m c) _ main_arg0 (by exact (by decide : ∀ w, Pipeline.arrRef spec0 w ≠ main_arg0))]
  exact V_arg0 m c
theorem W_arg1 : Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by tail_keeps_ref)),
    Pipeline.withArrays_of_ne _ c (V0 m c) _ main_arg1 (by exact (by decide : ∀ w, Pipeline.arrRef spec0 w ≠ main_arg1))]
  exact V_arg1 m c
theorem W_arg2 : Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by tail_keeps_ref)),
    Pipeline.withArrays_of_ne _ c (V0 m c) _ main_arg2 (by exact (by decide : ∀ w, Pipeline.arrRef spec0 w ≠ main_arg2))]
  exact V_arg2 m c
theorem W_arg3 : Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by tail_keeps_ref)),
    Pipeline.withArrays_of_ne _ c (V0 m c) _ main_arg3 (by exact (by decide : ∀ w, Pipeline.arrRef spec0 w ≠ main_arg3))]
  exact V_arg3 m c
theorem W_arg4 : Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by tail_keeps_ref)),
    Pipeline.withArrays_of_ne _ c (V0 m c) _ main_arg4 (by exact (by decide : ∀ w, Pipeline.arrRef spec0 w ≠ main_arg4))]
  exact V_arg4 m c
end

/-! ## The blocks the body is handed -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section
variable {c : Dev nD} (dat : Dat τ (Elt F) Unit ℕ (UR sig nD τ) ℕ cfg0 c)

/-- An input window's current staging buffer holds its block at every point, whether the point fetches it or the
    block index has not moved since the last fetch, once the body leaves input blocks in place. -/
theorem before_in0 (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
end

/-! ## The body -/

/-- The body's four accesses: each is the whole of its staging buffer. -/
abbrev rX : Rect S2048x256 := Rect.unit (s := S2048x256) ![0, 0] S2048x256.size inb_S2048x256_S2048x256_0_0
abbrev rW : Rect S256x768 := Rect.unit (s := S256x768) ![0, 0] S256x768.size inb_S256x768_S256x768_0_0
abbrev rB : Rect S1x768 := Rect.unit (s := S1x768) ![0, 0] S1x768.size inb_S1x768_S1x768_0_0
abbrev rO : Rect S2048x768 := Rect.unit (s := S2048x768) ![0, 0] S2048x768.size inb_S2048x768_S2048x768_0_0

/-- What the output block holds after the body: its one store, of the product of the patch rows and the weights plus
    the bias row, over the whole block. -/
def outBlk (x0 : Vec F S2048x256 .bf16) (x1 : Vec F S256x768 .bf16) (x2 : Vec F S1x768 .f32) : Vec F S2048x768 .f32 :=
  View.canon [⟨rO, k0_pay1 (View.ld x0 rX) (View.ld x1 rW) (View.ld x2 rB)⟩]

/-- The one store covers the block. -/
theorem outCover (p0 : Vec F S2048x768 .f32) (y : S2048x768.Idx) :
    ∃ pc ∈ ([⟨rO, p0⟩] : List (View.Piece (Elt F) S2048x768 .f32)), y ∈ pc.1.set :=
  View.cover_of_tiled [⟨rO, p0⟩] S2048x768.size (by rfl) y

set_option maxHeartbeats 1000000 in
/-- The body, on whole staging buffers holding `x0`, `x1`, `x2` and an output buffer holding anything, runs to its end
    leaving the inputs as they were and the output at `outBlk x0 x1 x2`. (Its read of the output buffer before the store
    is of a value the store does not use.) -/
theorem body_triple (c : Dev nD) (E : Set ℕ) (i : grid0.Coords)
    (arg1 : Memref sig .tc .vmem S2048x256 .bf16) (harg1 : arg1.IsWhole) (arg2 : Memref sig .tc .vmem S256x768 .bf16) (harg2 : arg2.IsWhole)
    (arg3 : Memref sig .tc .vmem S1x768 .f32) (harg3 : arg3.IsWhole) (arg4 : Memref sig .tc .vmem S2048x768 .f32) (harg4 : arg4.IsWhole)
    (x0 : Vec F S2048x256 .bf16) (x1 : Vec F S256x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's data, point by point -/

/-- On core `c`: the arrays as the region finds them; after the body at point `t` each input buffer at its block and
    the output buffer at `outBlk` of the three input blocks; nothing else is held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlk (iblk m c 0 t) (iblk m c 1 t) (iblk m c 2 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## The body at a grid point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any launch memory with zero counters every weakly fair execution of the program ends, nothing faulting, in a
    state where each array the region stages holds what the blocks written back make of it and every other buffer what
    the reshape after the region leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program runs to its end and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_arg0 m (dats m) c),
     ((h c).2 main_arg1 (Pipeline.mem_restRefs_of main_arg1 (by decide) (by decide))).trans (W_arg1 m (dats m) c),
     ((h c).2 main_arg2 (Pipeline.mem_restRefs_of main_arg2 (by decide) (by decide))).trans (W_arg2 m (dats m) c),
     ((h c).2 main_arg3 (Pipeline.mem_restRefs_of main_arg3 (by decide) (by decide))).trans (W_arg3 m (dats m) c),
     ((h c).2 main_arg4 (Pipeline.mem_restRefs_of main_arg4 (by decide) (by decide))).trans (W_arg4 m (dats m) c)⟩) (run_main m ρ)

end Cert.Kernel.Hand

end
-- ==== Proof.KernelIdealRun.lean ====
/-
  The run of the whole program around its one pallas region, at any reading of the floats.

  Before the region the host pads the images by 12 zeros on each side of the two spatial axes, adds the key points
  and the shifts, normalises negative offsets, gathers one 16×16 patch per token, lays the patches out as the rows of a
  131072 × 256 matrix, transposes the weights to 256 × 768 and reshapes the bias to one row.  The region walks 64 grid
  points; at point t it is handed rows 2048·t … 2048·t + 2047 of the patch matrix, the whole weight matrix and the
  bias row, and stores into its output block the product of the two plus the bias row repeated down the rows.  After
  the region the 131072 × 768 result is reshaped to 32 × 4096 × 1 × 768.

  Here: the buffer contents when the region is entered (a fold of the host operations over the launch memory), the
  facts that no host operation writes an argument array, the body's triple (the output block ends as the one store's
  value, a function of the three input blocks), the per-point data of the pipeline, and the run of the program to a
  state in which the result array holds the blocks written back and every argument array is as launched.
-/
import proofs.«122945_j17205638988437_2_alg».proof.Proof.Gen.KernelIdeal.Launch
import proofs.«122945_j17205638988437_2_alg».proof.Proof.Gen.KernelIdeal.Skeleton
import proofs.«122945_j17205638988437_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The three stretches of host operations before the region, in order: the constant, the padding call, the rest. -/
abbrev before : List (List (HloOp τ sig (Elt F))) := [hostOps0, hostOps0_1, hostOps0_2]

/-- What core `c`'s buffers hold when the region is entered: the host operations before it, folded over the
    launch memory. -/
abbrev V0 (c : Dev nD) : Valuation τ sig (Elt F) := StableHlo.after (List.flatten (before (F := F))) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches only the result array of the region and its own result. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- It writes no array the region stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-- No host operation before the region writes reference `b`, when `b` is none of their result buffers. -/
local macro "prefix_keeps" : tactic => `(tactic| (
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.reshape_writes, StableHlo.nary_writes, Finset.mem_singleton]
  repeat' apply And.intro
  all_goals exact StableHlo.devRef_ne_of_ne (by decide)))

local macro "tail_keeps_ref" : tactic => `(tactic| (
  simp only [hostOps1, List.flatten_cons, List.flatten_nil, List.append_nil, List.cons_append,
    List.nil_append, List.Forall, StableHlo.reshape_writes, Finset.mem_singleton]
  repeat' apply And.intro
  all_goals exact StableHlo.devRef_ne_of_ne (by decide)))

/-- The region finds each argument array as launched. -/
theorem V_arg0 (c : Dev nD) : V m c main_arg0 = m ((c : Thread nD τ).loc main_arg0) :=
  StableHlo.after_of_forall_not_mem (b := Proc.devRef .tc main_arg0) _ _ (List.forall_iff_forall_mem.mp (by prefix_keeps))
theorem V_arg1 (c : Dev nD) : V m c main_arg1 = m ((c : Thread nD τ).loc main_arg1) :=
  StableHlo.after_of_forall_not_mem (b := Proc.devRef .tc main_arg1) _ _ (List.forall_iff_forall_mem.mp (by prefix_keeps))
theorem V_arg2 (c : Dev nD) : V m c main_arg2 = m ((c : Thread nD τ).loc main_arg2) :=
  StableHlo.after_of_forall_not_mem (b := Proc.devRef .tc main_arg2) _ _ (List.forall_iff_forall_mem.mp (by prefix_keeps))
theorem V_arg3 (c : Dev nD) : V m c main_arg3 = m ((c : Thread nD τ).loc main_arg3) :=
  StableHlo.after_of_forall_not_mem (b := Proc.devRef .tc main_arg3) _ _ (List.forall_iff_forall_mem.mp (by prefix_keeps))
theorem V_arg4 (c : Dev nD) : V m c main_arg4 = m ((c : Thread nD τ).loc main_arg4) :=
  StableHlo.after_of_forall_not_mem (b := Proc.devRef .tc main_arg4) _ _ (List.forall_iff_forall_mem.mp (by prefix_keeps))

section
variable (dats : (p : Fin 1) → (c : Dev nD) → Dat τ (Elt F) Unit ℕ (UR sig nD τ) ℕ (cfgs p) c) (c : Dev nD)

/-- Each argument array ends as launched: the reshape after the region does not write it and the region does not stage it. -/
theorem W_arg0 : Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by tail_keeps_ref)),
    Pipeline.withArrays_of_ne _ c (V0 m c) _ main_arg0 (by exact (by decide : ∀ w, Pipeline.arrRef spec0 w ≠ main_arg0))]
  exact V_arg0 m c
theorem W_arg1 : Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by tail_keeps_ref)),
    Pipeline.withArrays_of_ne _ c (V0 m c) _ main_arg1 (by exact (by decide : ∀ w, Pipeline.arrRef spec0 w ≠ main_arg1))]
  exact V_arg1 m c
theorem W_arg2 : Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by tail_keeps_ref)),
    Pipeline.withArrays_of_ne _ c (V0 m c) _ main_arg2 (by exact (by decide : ∀ w, Pipeline.arrRef spec0 w ≠ main_arg2))]
  exact V_arg2 m c
theorem W_arg3 : Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by tail_keeps_ref)),
    Pipeline.withArrays_of_ne _ c (V0 m c) _ main_arg3 (by exact (by decide : ∀ w, Pipeline.arrRef spec0 w ≠ main_arg3))]
  exact V_arg3 m c
theorem W_arg4 : Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by tail_keeps_ref)),
    Pipeline.withArrays_of_ne _ c (V0 m c) _ main_arg4 (by exact (by decide : ∀ w, Pipeline.arrRef spec0 w ≠ main_arg4))]
  exact V_arg4 m c
end

/-! ## The blocks the body is handed -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

section
variable {c : Dev nD} (dat : Dat τ (Elt F) Unit ℕ (UR sig nD τ) ℕ cfg0 c)

/-- An input window's current staging buffer holds its block at every point, whether the point fetches it or the
    block index has not moved since the last fetch, once the body leaves input blocks in place. -/
theorem before_in0 (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
end

/-! ## The body -/

/-- The body's four accesses: each is the whole of its staging buffer. -/
abbrev rX : Rect S2048x256 := Rect.unit (s := S2048x256) ![0, 0] S2048x256.size inb_S2048x256_S2048x256_0_0
abbrev rW : Rect S256x768 := Rect.unit (s := S256x768) ![0, 0] S256x768.size inb_S256x768_S256x768_0_0
abbrev rB : Rect S1x768 := Rect.unit (s := S1x768) ![0, 0] S1x768.size inb_S1x768_S1x768_0_0
abbrev rO : Rect S2048x768 := Rect.unit (s := S2048x768) ![0, 0] S2048x768.size inb_S2048x768_S2048x768_0_0

/-- What the output block holds after the body: its one store, of the product of the patch rows and the weights plus
    the bias row, over the whole block. -/
def outBlk (x0 : Vec F S2048x256 .bf16) (x1 : Vec F S256x768 .bf16) (x2 : Vec F S1x768 .f32) : Vec F S2048x768 .f32 :=
  View.canon [⟨rO, k0_pay1 (View.ld x0 rX) (View.ld x1 rW) (View.ld x2 rB)⟩]

/-- The one store covers the block. -/
theorem outCover (p0 : Vec F S2048x768 .f32) (y : S2048x768.Idx) :
    ∃ pc ∈ ([⟨rO, p0⟩] : List (View.Piece (Elt F) S2048x768 .f32)), y ∈ pc.1.set :=
  View.cover_of_tiled [⟨rO, p0⟩] S2048x768.size (by rfl) y

set_option maxHeartbeats 1000000 in
/-- The body, on whole staging buffers holding `x0`, `x1`, `x2` and an output buffer holding anything, runs to its end
    leaving the inputs as they were and the output at `outBlk x0 x1 x2`. (Its read of the output buffer before the store
    is of a value the store does not use.) -/
theorem body_triple (c : Dev nD) (E : Set ℕ) (i : grid0.Coords)
    (arg1 : Memref sig .tc .vmem S2048x256 .bf16) (harg1 : arg1.IsWhole) (arg2 : Memref sig .tc .vmem S256x768 .bf16) (harg2 : arg2.IsWhole)
    (arg3 : Memref sig .tc .vmem S1x768 .f32) (harg3 : arg3.IsWhole) (arg4 : Memref sig .tc .vmem S2048x768 .f32) (harg4 : arg4.IsWhole)
    (x0 : Vec F S2048x256 .bf16) (x1 : Vec F S256x768 .bf16) (x2 : Vec F S1x768 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outCover _)

/-! ## The pipeline's data, point by point -/

/-- On core `c`: the arrays as the region finds them; after the body at point `t` each input buffer at its block and
    the output buffer at `outBlk` of the three input blocks; nothing else is held, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = outBlk (iblk m c 0 t) (iblk m c 1 t) (iblk m c 2 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d

/-! ## The body at a grid point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any launch memory with zero counters every weakly fair execution of the program ends, nothing faulting, in a
    state where each array the region stages holds what the blocks written back make of it and every other buffer what
    the reshape after the region leaves. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The program runs to its end and leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_arg0 m (dats m) c),
     ((h c).2 main_arg1 (Pipeline.mem_restRefs_of main_arg1 (by decide) (by decide))).trans (W_arg1 m (dats m) c),
     ((h c).2 main_arg2 (Pipeline.mem_restRefs_of main_arg2 (by decide) (by decide))).trans (W_arg2 m (dats m) c),
     ((h c).2 main_arg3 (Pipeline.mem_restRefs_of main_arg3 (by decide) (by decide))).trans (W_arg3 m (dats m) c),
     ((h c).2 main_arg4 (Pipeline.mem_restRefs_of main_arg4 (by decide) (by decide))).trans (W_arg4 m (dats m) c)⟩) (run_main m ρ)

end Cert.KernelIdeal.Hand

end
-- ==== Proof.Block.lean ====
/-
  The arithmetic of one grid point, read entry by entry over the extended reals.

  The body multiplies its 2048 × 256 block of patch rows by the 256 × 768 weight matrix into a zero accumulator and
  adds the bias row, repeated down the 2048 rows.  Over the extended reals a product into a zero accumulator is the
  plain sum over the contracted axis, so the value stored at row p, column q of the output block is
      Σ_k rows(p, k) · weights(k, q)  +  bias(0, q).
-/
import proofs.«122945_j17205638988437_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx
open scoped BigOperators

/-- The product's dimension record: rows × contraction times contraction × columns, no batch axis. -/
abbrev D := dot_S2048x256_S256x768_S2048x768_1_0_0_1_n_n

/-- The left operand is read at the output's row and the contraction index. -/
theorem lhs_at (p : Fin 2048) (q : Fin 768) (k : Fin 256) :
    D.lhsIdx (ix2 p q) ((contrEquiv1 D 256 rfl rfl).symm k) = ix2 p k := by
  have hk := contrEquiv1_symm_val D 256 rfl rfl k
  funext a; apply Fin.ext
  match a with
  | ⟨0, _⟩ =>
    show (D.lhsIdx (ix2 p q) ((contrEquiv1 D 256 rfl rfl).symm k) 0).val = p.val
    unfold DotDims.lhsIdx
    rw [dif_neg (show ¬(0 : Fin S2048x256.rank) ∈ D.lhsBatch by decide), dif_pos (show (0 : Fin S2048x256.rank) ∈ D.lhsNonContracting by decide)]
    rfl
  | ⟨1, _⟩ => exact (D.lhsIdx_val_of_single rfl (ix2 p q) _).trans hk

/-- The right operand is read at the contraction index and the output's column. -/
theorem rhs_at (p : Fin 2048) (q : Fin 768) (k : Fin 256) :
    D.rhsIdx (ix2 p q) ((contrEquiv1 D 256 rfl rfl).symm k) = ix2 k q := by
  have hk := contrEquiv1_symm_val D 256 rfl rfl k
  funext a; apply Fin.ext
  match a with
  | ⟨0, _⟩ => exact (D.rhsIdx_val_of_single rfl (ix2 p q) _).trans hk
  | ⟨1, _⟩ =>
    show (D.rhsIdx (ix2 p q) ((contrEquiv1 D 256 rfl rfl).symm k) 1).val = q.val
    unfold DotDims.rhsIdx
    rw [dif_neg (show ¬(1 : Fin S256x768.rank) ∈ D.rhsBatch by decide), dif_pos (show (1 : Fin S256x768.rank) ∈ D.rhsNonContracting by decide)]
    rfl

/-- The product into a zero accumulator, at row p and column q, is the sum over the contraction. -/
theorem product_at (x0 : FVec Ideal S2048x256 .bf16) (x1 : FVec Ideal S256x768 .bf16) (p : Fin 2048) (q : Fin 768) :
    FloatOps.matmul D none x0 x1 (constant S2048x768 .f32 0x00000000#32) (ix2 p q)
      = ∑ k : Fin 256, x0 (ix2 p k) * x1 (ix2 k q) := by
  rw [Ideal.matmul_constant_zero_apply, ← Equiv.sum_comp (contrEquiv1 D 256 rfl rfl).symm]
  refine Finset.sum_congr rfl fun k _ => ?_
  rw [lhs_at, rhs_at]

/-- What the body stores at row p, column q of its output block. -/
theorem stored_at (x0 : FVec Ideal S2048x256 .bf16) (x1 : FVec Ideal S256x768 .bf16) (x2 : FVec Ideal S1x768 .f32)
    (p : Fin 2048) (q : Fin 768) :
    k0_pay1 (F := Ideal) x0 x1 x2 (ix2 p q) = (∑ k : Fin 256, x0 (ix2 p k) * x1 (ix2 k q)) + x2 (ix2 (0 : Fin 1) q) := by
  unfold k0_pay1
  rw [addf_apply, shapeCast_self, shapeCast_self, shapeCast_self]
  refine congrArg₂ (· + ·) (product_at x0 x1 p q) ?_
  exact broadcastTo_1b_ab_apply x2 _ p q

end Cert.KernelIdeal.Block

end
-- ==== Proof.Result.lean ====
/-
  The array the region leaves, and the program's result, as functions of the three arrays the region reads.

  With X the 131072 × 256 patch matrix, Wt the 256 × 768 transposed weights and Bt the 1 × 768 bias row, grid point t is
  handed rows 2048·t … 2048·t + 2047 of X, all of Wt and all of Bt, and stores at row p, column q of its block
      Σ_k X(2048·t + p, k) · Wt(k, q) + Bt(0, q),
  which is entry (2048·t + p, q) of the one 131072 × 768 array `product X Wt Bt`.  Point t writes its block back to rows
  2048·t … 2048·t + 2047; the 64 points cover every row, so after the region the result array is `product X Wt Bt`.
  The reshape after the region re-indexes it row-major as 32 × 4096 × 1 × 768.
-/
import proofs.«122945_j17205638988437_2_alg».proof.Proof.KernelIdealRun
import proofs.«122945_j17205638988437_2_alg».proof.Proof.Block
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx Idealize.ShloMosaic.StableHlo
open Idealize.ShloMosaic.Pipeline (Dat)
open Cert.KernelIdeal.Gen
open scoped BigOperators

/-- Entry (n, e) of the product of the patch matrix with the transposed weights, plus the bias row. -/
def productAt (X : S131072x256.Idx → EReal) (Wt : S256x768.Idx → EReal) (Bt : S1x768.Idx → EReal)
    (n : Fin 131072) (e : Fin 768) : EReal :=
  (∑ k : Fin 256, X (ix2 n k) * Wt (ix2 k e)) + Bt (ix2 (0 : Fin 1) e)

/-- The same as a 131072 × 768 array. -/
def product (X : S131072x256.Idx → EReal) (Wt : S256x768.Idx → EReal) (Bt : S1x768.Idx → EReal) :
    S131072x768.Idx → EReal :=
  fun j => productAt X Wt Bt (j 0) (j 1)

theorem product_ix2 (X : S131072x256.Idx → EReal) (Wt : S256x768.Idx → EReal) (Bt : S1x768.Idx → EReal)
    (n : Fin 131072) (e : Fin 768) : product X Wt Bt (ix2 n e) = productAt X Wt Bt n e := rfl

/-- A block of 2048 rows starting at row `r0`, the whole of the weights and the whole of the bias row give, through the
    body's arithmetic, the same 2048 rows of the product. -/
theorem stored_is_product (X : S131072x256.Idx → EReal) (Wt : S256x768.Idx → EReal) (Bt : S1x768.Idx → EReal)
    (x0 : FVec Ideal S2048x256 .bf16) (x1 : FVec Ideal S256x768 .bf16) (x2 : FVec Ideal S1x768 .f32)
    (r0 : ℕ) (hr : r0 + 2048 ≤ 131072)
    (h0 : ∀ (p : Fin 2048) (k : Fin 256), x0 (ix2 p k) = X (ix2 (⟨r0 + p.val, by have := p.isLt; omega⟩ : Fin 131072) k))
    (h1 : ∀ (k : Fin 256) (q : Fin 768), x1 (ix2 k q) = Wt (ix2 k q))
    (h2 : ∀ q : Fin 768, x2 (ix2 (0 : Fin 1) q) = Bt (ix2 (0 : Fin 1) q))
    (p : Fin 2048) (q : Fin 768) :
    k0_pay1 (F := Ideal) x0 x1 x2 (ix2 p q) = productAt X Wt Bt (⟨r0 + p.val, by have := p.isLt; omega⟩ : Fin 131072) q := by
  rw [Cert.KernelIdeal.Block.stored_at]
  unfold productAt
  rw [h2 q]
  exact congrArg (· + Bt (ix2 (0 : Fin 1) q)) (Finset.sum_congr rfl fun k _ => by rw [h0 p k, h1 k q])

variable (m : (ℓ : Loc nD τ sig) → Buf (Elt Ideal) ℓ) (ρ : Dev nD → PrngReg)

theorem hz : (![0, 0] : Fin 2 → Nat) = fun _ => 0 := funext fun a => by fin_cases a <;> rfl

/-- Where the four windows' blocks sit at point `t`: the patch rows and the result move down one block per point, the
    weights and the bias stay. -/
theorem where_blocks : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 64 := lt_of_lt_of_eq t.isLt N_0

/-- What point `t` writes back is block `t` of the product of the arrays the region found. -/
theorem flushed_eq (c : Dev nD) (t : Fin cfg0.N) :
    (dats m 0 c).flushed 3 t
      = ((cfg0.win 3).blk t).view.read (Elt Ideal) (product (V m c main_v23) (V m c main_v25) (V m c main_v26)) := by
  show (cfg0.win 3).cut (grid0.coords t) ((dats m 0 c).after 3 t) = _
  rw [after3]
  unfold outBlk
  rw [View.canon_unit_zero hz]
  simp only [View.ld_unit_zero (S := S2048x256) hz, View.ld_unit_zero (S := S256x768) hz, View.ld_unit_zero (S := S1x768) hz]
  obtain ⟨e00, e01, e10, e11, e20, e21, e30, e31⟩ := where_blocks t
  have ht := point_lt t
  refine funext fun (y : S2048x768.Idx) => ?_
  obtain ⟨p, q, rfl⟩ : ∃ (p : Fin 2048) (q : Fin 768), y = ix2 p q := ⟨y 0, y 1, eq_ix2 y⟩
  have hp := p.isLt
  have hq := q.isLt
  have hemb : ((cfg0.win 3).blk t).view.emb (ix2 p q) = ix2 (⟨2048 * t.val + p.val, by omega⟩ : Fin 131072) q := by
    funext a; apply Fin.ext
    match a with
    | ⟨0, _⟩ => show win0_3.index t (0 : Fin 2) * 2048 + 1 * p.val = 2048 * t.val + p.val; omega
    | ⟨1, _⟩ => show win0_3.index t (1 : Fin 2) * 768 + 1 * q.val = q.val; omega
  show k0_pay1 (F := Ideal) (iblk m c 0 t) (iblk m c 1 t) (iblk m c 2 t) (ix2 p q)
    = product (V m c main_v23) (V m c main_v25) (V m c main_v26) (((cfg0.win 3).blk t).view.emb (ix2 p q))
  rw [hemb, product_ix2]
  refine stored_is_product (V m c main_v23) (V m c main_v25) (V m c main_v26) _ _ _ (2048 * t.val) (by omega) ?_ ?_ ?_ p q
  · intro p' k
    have hp' := p'.isLt
    have hk := k.isLt
    show V m c main_v23 (((cfg0.win 0).blk t).view.emb (ix2 p' k)) = _
    refine congrArg (V m c main_v23) (funext fun a => Fin.ext ?_)
    match a with
    | ⟨0, _⟩ => show win0_0.index t (0 : Fin 2) * 2048 + 1 * p'.val = 2048 * t.val + p'.val; omega
    | ⟨1, _⟩ => show win0_0.index t (1 : Fin 2) * 256 + 1 * k.val = k.val; omega
  · intro k q'
    have hk := k.isLt
    have hq' := q'.isLt
    show V m c main_v25 (((cfg0.win 1).blk t).view.emb (ix2 k q')) = _
    refine congrArg (V m c main_v25) (funext fun a => Fin.ext ?_)
    match a with
    | ⟨0, _⟩ => show win0_1.index t (0 : Fin 2) * 256 + 1 * k.val = k.val; omega
    | ⟨1, _⟩ => show win0_1.index t (1 : Fin 2) * 768 + 1 * q'.val = q'.val; omega
  · intro q'
    have hq' := q'.isLt
    show V m c main_v26 (((cfg0.win 2).blk t).view.emb (ix2 (0 : Fin 1) q')) = _
    refine congrArg (V m c main_v26) (funext fun a => Fin.ext ?_)
    match a with
    | ⟨0, _⟩ => show win0_2.index t (0 : Fin 2) * 1 + 1 * 0 = 0; omega
    | ⟨1, _⟩ => show win0_2.index t (1 : Fin 2) * 768 + 1 * q'.val = q'.val; omega

/-- An index of the result array is in point `t`'s block iff each coordinate is in the block's range. -/
theorem mem_blk (t : Fin cfg0.N) (i : S131072x768.Idx) :
    i ∈ ((cfg0.win 3).blk t).view.set ↔ ∀ a : Fin 2, win0_3.index t a * S2048x768.size a ≤ (i a).val
      ∧ (i a).val < win0_3.index t a * S2048x768.size a + S2048x768.size a := by
  show i ∈ ((View.whole main_v27).slice (win0_3.rect t)).set ↔ _
  rw [View.set_slice_whole, Rect.mem_set_unit]
  exact Iff.rfl

/-- Every row is in the block of the point its number divided by 2048 names. -/
theorem covered (i : S131072x768.Idx) :
    ∃ t : Fin cfg0.N, (cfg0.win 3).flush t = true ∧ i ∈ ((cfg0.win 3).blk t).view.set := by
  have h0 : (i 0).val < 131072 := (i 0).isLt
  have h1 : (i 1).val < 768 := (i 1).isLt
  have hN : cfg0.N = 64 := N_0
  let t : Fin cfg0.N := ⟨(i 0).val / 2048, by rw [hN]; omega⟩
  obtain ⟨e00, e01, e10, e11, e20, e21, e30, e31⟩ := where_blocks t
  have e30' : win0_3.index t (0 : Fin 2) = (i 0).val / 2048 := e30
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 768 ≤ (i 1).val ∧ (i 1).val < win0_3.index t (1 : Fin 2) * 768 + 768; omega

/-- After the region the result array is the product of the arrays the region found. -/
theorem region_result (c : Dev nD) :
    (dats m 0 c).arrAt 3 cfg0.N = product (V m c main_v23) (V m c main_v25) (V m c main_v26) :=
  (dats m 0 c).arrAt_eq_of_cover 3 _ (fun t _ => flushed_eq m c t) covered

/-- The program's result: the reshape after the region applied to what the region left. -/
theorem tail_result (c : Dev nD) :
    Pipeline.afterTail₀ cfgs (dats m) 0 (V0 m) [hostOps1] c main_v28
      = shapeCast S32x4096x1x768 (product (V m c main_v23) (V m c main_v25) (V m c main_v26)) shapeCasts_S131072x768_S32x4096x1x768 := by
  unfold Pipeline.afterTail₀
  show StableHlo.after hostOps1 _ (Proc.devRef .tc main_v28) = _
  after_results
  exact congrArg (fun A => shapeCast S32x4096x1x768 A shapeCasts_S131072x768_S32x4096x1x768)
    ((Pipeline.withArrays_arr spec0 launch0.win.arr_inj c _ _ 3).trans (region_result m c))

/-- The run of the idealized program with its result named. -/
theorem run_value : θ_run defs (onTc (τ := τ) (main (F := Ideal))) ⟨m, fun _ => 0, ρ⟩ (fun r => ∀ c : Dev nD,
      r.2.mem ((c.tc : Thread nD τ).loc main_v28)
        = shapeCast S32x4096x1x768 (product (V m c main_v23) (V m c main_v25) (V m c main_v26)) shapeCasts_S131072x768_S32x4096x1x768
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v28 (Pipeline.mem_restRefs_of main_v28 (by decide) (by decide))).trans (tail_result m c),
     ((h c).2 main_arg0 (Pipeline.mem_restRefs_of main_arg0 (by decide) (by decide))).trans (W_arg0 m (dats m) c),
     ((h c).2 main_arg1 (Pipeline.mem_restRefs_of main_arg1 (by decide) (by decide))).trans (W_arg1 m (dats m) c),
     ((h c).2 main_arg2 (Pipeline.mem_restRefs_of main_arg2 (by decide) (by decide))).trans (W_arg2 m (dats m) c),
     ((h c).2 main_arg3 (Pipeline.mem_restRefs_of main_arg3 (by decide) (by decide))).trans (W_arg3 m (dats m) c),
     ((h c).2 main_arg4 (Pipeline.mem_restRefs_of main_arg4 (by decide) (by decide))).trans (W_arg4 m (dats m) c)⟩) (run_main m ρ)

end Cert.KernelIdeal.Hand

end
-- ==== Proof.Entry.lean ====
/-
  What the region finds in the three arrays it reads, as terms of the argument arrays.

  The patch matrix: the images padded by 12 zeros on every side of the two spatial axes; per token the two offsets
  (key point plus shift, an offset below zero moved up by the padded extent 536) joined behind a zero channel index;
  one 1 × 16 × 16 patch gathered per token at those offsets; the 32 × 4096 × 1 × 16 × 16 patches laid out row-major as
  131072 rows of 256 entries.  The weights: the 768 × 256 matrix transposed.  The bias: the 768 entries as one row.
  (The two changes of float format on the way are written where the program has them; over the extended reals they
  change nothing.)
-/
import proofs.«122945_j17205638988437_2_alg».proof.Proof.KernelIdealRun
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal.Gen

variable {F : FTy → Type} [FloatOps F]

/-- The images with 12 zeros added on every side of their last two axes. -/
def padded (x0 : (⟨S32x1x512x512, .f32⟩ : BufTy).Contents (Elt F)) : (⟨S32x1x536x536, .f32⟩ : BufTy).Contents (Elt F) :=
  pad S32x1x536x536 ![0, 0, 12, 12] ![0, 0, 12, 12] ![0, 0, 0, 0] x0 (sitofp .f32 (constantI S_ 32 0#32))
    pads_S32x1x512x512_S32x1x536x536_000_000_12120_12120 h_S_

/-- Column `j` (0 or 1) of key point plus shift, per image and token. -/
def startCol0 (x1 x2 : (⟨S32x4096x2, .i32⟩ : BufTy).Contents (Elt F)) : (⟨S32x4096, .i32⟩ : BufTy).Contents (Elt F) :=
  shapeCast _ (extractStridedSlice S32x4096x1 ![0, 0, 0] (addi x1 x2) slices_S32x4096x2_S32x4096x1_0_0_0) shapeCasts_S32x4096x1_S32x4096
def startCol1 (x1 x2 : (⟨S32x4096x2, .i32⟩ : BufTy).Contents (Elt F)) : (⟨S32x4096, .i32⟩ : BufTy).Contents (Elt F) :=
  shapeCast _ (extractStridedSlice S32x4096x1 ![0, 0, 1] (addi x1 x2) slices_S32x4096x2_S32x4096x1_0_0_1) shapeCasts_S32x4096x1_S32x4096

/-- An offset below zero is moved up by 536, the padded extent. -/
def wrapped (v : (⟨S32x4096, .i32⟩ : BufTy).Contents (Elt F)) : (⟨S32x4096, .i32⟩ : BufTy).Contents (Elt F) :=
  select (cmpi .slt v (broadcastInDim S32x4096 ![] bcast_S_S32x4096 (constantI S_ 32 0#32)))
    (addi v (broadcastInDim S32x4096 ![] bcast_S_S32x4096 (constantI S_ 32 536#32))) v

/-- Per image and token the three gather offsets: channel 0, then the second column, then the first. -/
def offsets (x1 x2 : (⟨S32x4096x2, .i32⟩ : BufTy).Contents (Elt F)) : (⟨S32x4096x3, .i32⟩ : BufTy).Contents (Elt F) :=
  concatenate S32x4096x3 2
    [⟨S32x4096x1, broadcastInDim S32x4096x1 ![1, 2] bcast_S4096x1_S32x4096x1_1_2 (broadcastInDim S4096x1 ![] bcast_S_S4096x1 (constantI S_ 32 0#32))⟩,
     ⟨S32x4096x1, broadcastInDim S32x4096x1 ![0, 1] bcast_S32x4096_S32x4096x1_0_1 (wrapped (startCol1 x1 x2))⟩,
     ⟨S32x4096x1, broadcastInDim S32x4096x1 ![0, 1] bcast_S32x4096_S32x4096x1_0_1 (wrapped (startCol0 x1 x2))⟩]
    concatenates_S32x4096x1_S32x4096x1_S32x4096x1_S32x4096x3_d2

/-- One 1 × 16 × 16 patch per image and token, out of the padded images. -/
def patches (x0 : (⟨S32x1x512x512, .f32⟩ : BufTy).Contents (Elt F)) (x1 x2 : (⟨S32x4096x2, .i32⟩ : BufTy).Contents (Elt F)) :
    (⟨S32x4096x1x16x16, .bf16⟩ : BufTy).Contents (Elt F) :=
  Host.gather gather_S32x1x536x536_S32x4096x3_S32x4096x1x16x16_234_n_0_0_123_2_111616
    (truncf .bf16 (padded x0) bitsLt_bf16_f32) (offsets x1 x2)

/-- The patches as the rows of a 131072 × 256 matrix. -/
def patchRows (x0 : (⟨S32x1x512x512, .f32⟩ : BufTy).Contents (Elt F)) (x1 x2 : (⟨S32x4096x2, .i32⟩ : BufTy).Contents (Elt F)) :
    (⟨S131072x256, .bf16⟩ : BufTy).Contents (Elt F) :=
  shapeCast _ (patches x0 x1 x2) shapeCasts_S32x4096x1x16x16_S131072x256

/-- The weights transposed to 256 × 768. -/
def weightsT (x3 : (⟨S768x256, .f32⟩ : BufTy).Contents (Elt F)) : (⟨S256x768, .bf16⟩ : BufTy).Contents (Elt F) :=
  truncf .bf16 (transpose S256x768 [1, 0] x3 transposes_S768x256_S256x768_1_0) bitsLt_bf16_f32

/-- The bias as a 1 × 768 row. -/
def biasRow (x4 : (⟨S768, .f32⟩ : BufTy).Contents (Elt F)) : (⟨S1x768, .f32⟩ : BufTy).Contents (Elt F) :=
  shapeCast _ x4 shapeCasts_S768_S1x768

variable (m : (ℓ : Loc nD τ sig) → Buf (Elt F) ℓ)

/-- Opens the fold of the host operations before the region at one buffer. -/
local macro "read_entry" : tactic => `(tactic| (
  dsimp only [V, V0, before]
  simp only [hostOps0, hostOps0_1, hostOps0_2, List.flatten_cons, List.flatten_nil, List.append_nil, List.cons_append, List.nil_append]
  after_results_simp <;> rfl))

set_option maxHeartbeats 2000000 in
theorem entry_rows (c : Dev nD) :
    V m c main_v23 = patchRows (m ((c.tc : Thread nD τ).loc main_arg0)) (m ((c.tc : Thread nD τ).loc main_arg1)) (m ((c.tc : Thread nD τ).loc main_arg2)) := by
  read_entry

set_option maxHeartbeats 2000000 in
theorem entry_weights (c : Dev nD) : V m c main_v25 = weightsT (m ((c.tc : Thread nD τ).loc main_arg3)) := by
  read_entry

set_option maxHeartbeats 2000000 in
theorem entry_bias (c : Dev nD) : V m c main_v26 = biasRow (m ((c.tc : Thread nD τ).loc main_arg4)) := by
  read_entry

end Cert.KernelIdeal.Hand

end
-- ==== Proof.RefValue.lean ====
/-
  The reference's result as one function of the gathered patches, the weights and the bias.

  The reference lays the 32 × 4096 × 1 × 16 × 16 patches out as 32 × 4096 × 1 × 256, contracts the last axis with the
  last axis of the 768 × 256 weights, and adds the bias along the last axis.  So at image b, token t, channel e the
  result is
      Σ_k patch(b, t)[k] · W(e, k)  +  bias(e),
  where entry k of a patch is the entry of the 16 × 16 patch at row k / 16, column k mod 16.  Which patch entry that is
  inside the gathered array is a matter of row-major positions only: it is written `patchAt` below.
-/
import proofs.«122945_j17205638988437_2_alg».proof.Proof.Gen.ReferenceIdeal.Read

noncomputable section

namespace Cert.ReferenceIdeal.RefValue

open Cert.ReferenceIdeal Cert.ReferenceIdeal.Read Idealize.ShloMosaic Idealize.ShloMosaic.TcCoe
open scoped BigOperators

/-- Where entry `k` of the patch of result index `i` sits in the gathered array. -/
abbrev patchAt (i : S32x4096x1x768.Idx) (k : Fin 256) : S32x4096x1x16x16.Idx := idx_main_v22 (lidx_main_v23 i k)
/-- Where the weight that meets it sits: row = the result's channel, column = `k`. -/
abbrev weightAt (i : S32x4096x1x768.Idx) (k : Fin 256) : S768x256.Idx := ridx_main_v23 i k
/-- Where the bias entry sits: at the result's channel. -/
abbrev biasAt (i : S32x4096x1x768.Idx) : S768.Idx := idx_main_v24 (idx_main_v25 i)

/-- The linear layer on gathered patches, entry by entry. -/
def linear (P : S32x4096x1x16x16.Idx → EReal) (W : S768x256.Idx → EReal) (b : S768.Idx → EReal) :
    S32x4096x1x768.Idx → EReal :=
  fun i => (∑ k : Fin 256, P (patchAt i k) * W (weightAt i k)) + b (biasAt i)

/-- The reference's result is the linear layer on its gathered patches. -/
theorem result_eq (x0 : (⟨S32x1x512x512, .f32⟩ : BufTy).Contents (Elt Ideal)) (x1 x2 : (⟨S32x4096x2, .i32⟩ : BufTy).Contents (Elt Ideal))
    (x3 : (⟨S768x256, .f32⟩ : BufTy).Contents (Elt Ideal)) (x4 : (⟨S768, .f32⟩ : BufTy).Contents (Elt Ideal)) :
    val_main_v26 (F := Ideal) x0 x1 x2 x3 x4 = linear (val_main_v21 (F := Ideal) x0 x1 x2) x3 x4 := by
  funext i
  rw [val_main_v26_apply, val_main_v23_apply, val_main_v25_apply, val_main_v24_apply]
  simp only [val_main_v22_apply]
  rfl

end Cert.ReferenceIdeal.RefValue

end
-- ==== Proof.Bridge.lean ====
/-
  The kernel's result and the reference's result are one function of the argument arrays.

  Both programs gather the same patches: the padded images and the offsets are computed by the same operations, and the
  kernel's change of float format before the gather is the identity over the extended reals.  Call the gathered array P.

  The kernel lays P out row-major as 131072 × 256, multiplies by the transposed weights, adds the bias row and lays the
  131072 × 768 result out row-major as 32 × 4096 × 1 × 768.  At (b, t, u, e) that is row n = (b·4096 + t)·1 + u, column e:
      Σ_k P[row-major position n·256 + k] · W(e, k) + bias(e).
  The reference lays P out row-major as 32 × 4096 × 1 × 256 and contracts the last axis with W's last axis; at (b, t, u, e)
  it reads P at row-major position ((b·4096 + t)·1 + u)·256 + k — the same position — times W(e, k), plus bias(e).
  Same factors in the same order, term by term: no law of the extended reals is needed beyond the product read as a sum.
-/
import proofs.«122945_j17205638988437_2_alg».proof.Proof.Result
import proofs.«122945_j17205638988437_2_alg».proof.Proof.Entry
import proofs.«122945_j17205638988437_2_alg».proof.Proof.RefValue
import Idealize.ShloMosaic.Lib.ValueLayout

noncomputable section

namespace Cert.Bridge

open Idealize.ShloMosaic Idealize.ShloMosaic.TcCoe Idealize.ShloMosaic.ValueIdx
open scoped BigOperators

/-- Both programs gather the same patches. -/
theorem patches_eq (a0 : (⟨Cert.KernelIdeal.S32x1x512x512, .f32⟩ : BufTy).Contents (Elt Ideal))
    (a1 a2 : (⟨Cert.KernelIdeal.S32x4096x2, .i32⟩ : BufTy).Contents (Elt Ideal)) :
    Cert.KernelIdeal.Hand.patches (F := Ideal) a0 a1 a2 = Cert.ReferenceIdeal.Read.val_main_v21 (F := Ideal) a0 a1 a2 := rfl

/-- Row n = (b·4096 + t)·1 + u of the patch matrix, entry k, is entry k of the patch of (b, t, u). -/
theorem rows_at (P : Cert.KernelIdeal.S32x4096x1x16x16.Idx → EReal) (b : Fin 32) (t : Fin 4096) (u : Fin 1) (e : Fin 768) (k : Fin 256)
    (n : Fin 131072) (hn : n.val = (b.val * 4096 + t.val) * 1 + u.val) :
    shapeCast Cert.KernelIdeal.S131072x256 P Cert.KernelIdeal.Gen.shapeCasts_S32x4096x1x16x16_S131072x256 (ix2 n k)
      = P (Cert.ReferenceIdeal.RefValue.patchAt (ix4 b t u e) k) := by
  refine shapeCast_apply P _ _ _ ?_
  rw [Shape.rowMajor_val_five, Shape.rowMajor_val_two]
  have hb := b.isLt; have ht := t.isLt; have hu := u.isLt; have hk := k.isLt
  show ((((((b.val * 4096 + t.val) * 1 + u.val) * 256 + k.val) / 1048576 * 4096
        + (((b.val * 4096 + t.val) * 1 + u.val) * 256 + k.val) / 256 % 4096) * 1 + 0) * 16
        + (((b.val * 4096 + t.val) * 1 + u.val) * 256 + k.val) / 16 % 16) * 16
        + (((b.val * 4096 + t.val) * 1 + u.val) * 256 + k.val) % 16 = n.val * 256 + k.val
  omega

/-- The transposed weights at (k, e) are the weights at (e, k). -/
theorem weights_at (a3 : (⟨Cert.KernelIdeal.S768x256, .f32⟩ : BufTy).Contents (Elt Ideal)) (b : Fin 32) (t : Fin 4096) (u : Fin 1) (e : Fin 768) (k : Fin 256) :
    Cert.KernelIdeal.Hand.weightsT (F := Ideal) a3 (ix2 k e) = a3 (Cert.ReferenceIdeal.RefValue.weightAt (ix4 b t u e) k) := by
  unfold Cert.KernelIdeal.Hand.weightsT
  show transpose Cert.KernelIdeal.S256x768 [1, 0] a3 Cert.KernelIdeal.Gen.transposes_S768x256_S256x768_1_0 (ix2 k e) = _
  rw [transpose_ix2_apply]
  refine congrArg a3 (funext fun a => Fin.ext ?_)
  match a with
  | ⟨0, _⟩ => rfl
  | ⟨1, _⟩ => rfl

/-- The bias row at (0, e) is the bias at e. -/
theorem bias_at (a4 : (⟨Cert.KernelIdeal.S768, .f32⟩ : BufTy).Contents (Elt Ideal)) (b : Fin 32) (t : Fin 4096) (u : Fin 1) (e : Fin 768) :
    Cert.KernelIdeal.Hand.biasRow (F := Ideal) a4 (ix2 (0 : Fin 1) e) = a4 (Cert.ReferenceIdeal.RefValue.biasAt (ix4 b t u e)) := by
  unfold Cert.KernelIdeal.Hand.biasRow
  rw [shapeCast_a_1a_apply]
  refine congrArg a4 (funext fun a => Fin.ext ?_)
  match a with
  | ⟨0, _⟩ => rfl

/-- The kernel's result, as a function of the argument arrays, is the reference's. -/
theorem result_eq (a0 : (⟨Cert.KernelIdeal.S32x1x512x512, .f32⟩ : BufTy).Contents (Elt Ideal))
    (a1 a2 : (⟨Cert.KernelIdeal.S32x4096x2, .i32⟩ : BufTy).Contents (Elt Ideal))
    (a3 : (⟨Cert.KernelIdeal.S768x256, .f32⟩ : BufTy).Contents (Elt Ideal)) (a4 : (⟨Cert.KernelIdeal.S768, .f32⟩ : BufTy).Contents (Elt Ideal)) :
    shapeCast Cert.KernelIdeal.S32x4096x1x768
        (Cert.KernelIdeal.Hand.product (Cert.KernelIdeal.Hand.patchRows (F := Ideal) a0 a1 a2) (Cert.KernelIdeal.Hand.weightsT (F := Ideal) a3) (Cert.KernelIdeal.Hand.biasRow (F := Ideal) a4))
        Cert.KernelIdeal.Gen.shapeCasts_S131072x768_S32x4096x1x768
      = Cert.ReferenceIdeal.Read.val_main_v26 (F := Ideal) a0 a1 a2 a3 a4 := by
  rw [Cert.ReferenceIdeal.RefValue.result_eq]
  unfold Cert.KernelIdeal.Hand.patchRows
  rw [patches_eq]
  generalize Cert.ReferenceIdeal.Read.val_main_v21 (F := Ideal) a0 a1 a2 = P
  funext i
  obtain ⟨b, t, u, e, rfl⟩ : ∃ (b : Fin 32) (t : Fin 4096) (u : Fin 1) (e : Fin 768), i = ix4 b t u e :=
    ⟨i 0, i 1, i 2, i 3, eq_ix4 i⟩
  have hb := b.isLt; have ht := t.isLt; have hu := u.isLt; have he := e.isLt
  let n : Fin 131072 := ⟨(b.val * 4096 + t.val) * 1 + u.val, by omega⟩
  have hrm : ((Cert.KernelIdeal.S131072x768).rowMajor (ix2 n e)).val = ((Cert.KernelIdeal.S32x4096x1x768).rowMajor (ix4 b t u e)).val := by
    rw [Shape.rowMajor_val_two, Shape.rowMajor_val_four]
    rfl
  rw [shapeCast_apply _ Cert.KernelIdeal.Gen.shapeCasts_S131072x768_S32x4096x1x768 (ix4 b t u e) (ix2 n e) hrm,
    Cert.KernelIdeal.Hand.product_ix2]
  unfold Cert.KernelIdeal.Hand.productAt Cert.ReferenceIdeal.RefValue.linear
  rw [bias_at a4 b t u e]
  refine congrArg (· + a4 (Cert.ReferenceIdeal.RefValue.biasAt (ix4 b t u e))) (Finset.sum_congr rfl fun k _ => ?_)
  rw [rows_at P b t u e k n rfl, weights_at a3 b t u e k]

end Cert.Bridge

end
-- ==== Proof.lean ====
/-
  Patch embedding: per image and token a 16 × 16 patch is cut out of the zero-padded image at key point plus shift,
  flattened to 256 numbers, and sent through a linear layer, 256 → 768, with bias.

  The kernel program gathers the patches on the host, runs the linear layer as one blocked matrix product on the
  TensorCore (64 grid points of 2048 tokens each, the bias added in the same step), and reshapes the result; the
  reference gathers the same patches and contracts them with the weights in one host operation.

  Frames: each program runs to its end without a fault and leaves its five argument arrays as launched (for the two
  kernel programs: the run around the pallas region; for the reference: its host operations one after the other).
  The idealized kernel is the kernel's own text read over the extended reals: nothing was rewritten, so there is
  nothing to preserve.  Algebraic: over the extended reals both results are, at image b, token t, channel e,
      Σ_k patch(b, t)[k] · W(e, k) + bias(e),
  the same products summed over the same index (module Bridge); no input needs to be finite for that.
-/
import proofs.«122945_j17205638988437_2_alg».proof.Defs
import proofs.«122945_j17205638988437_2_alg».proof.Proof.Gen.Kernel
import proofs.«122945_j17205638988437_2_alg».proof.Proof.Gen.KernelIdeal
import proofs.«122945_j17205638988437_2_alg».proof.Proof.Gen.ReferenceIdeal
import proofs.«122945_j17205638988437_2_alg».proof.Proof.Gen.Pre_finite_inputs
import proofs.«122945_j17205638988437_2_alg».proof.Proof.KernelRun
import proofs.«122945_j17205638988437_2_alg».proof.Proof.Bridge

noncomputable section

namespace Cert.Proof

open Idealize.ShloMosaic Idealize.SL.Sem

theorem frame_kernel : Cert.frame_Kernel := fun m ρ _ => Cert.Kernel.Hand.frame m ρ

theorem frame_ideal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the linear layer applied to the patches gathered from the arguments. -/
theorem algebraic : Cert.algebraic_KernelIdeal_ReferenceIdeal := by
  intro m ρ m' ρ' _ hagree
  refine ⟨fun c => Cert.ReferenceIdeal.Read.val_main_v26 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.Hand.run_value m ρ)
    rw [Cert.KernelIdeal.Hand.entry_rows m c, Cert.KernelIdeal.Hand.entry_weights m c, Cert.KernelIdeal.Hand.entry_bias m c]
    exact Cert.Bridge.result_eq _ _ _ _ _
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, (hagree c).1, (hagree c).2.1, (hagree c).2.2.1, (hagree c).2.2.2.1,
      (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
